-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x50000x8x16 : Shape := ⟨4, ![1, 50000, 8, 16]⟩
abbrev S2x800000 : Shape := ⟨2, ![2, 800000]⟩
abbrev S_ : Shape := ⟨0, ![]⟩

class Facts : Prop where
  bcast_S_S1x50000x8x16 : S_.BroadcastsInDim S1x50000x8x16 (![] : Fin 0 → Fin S1x50000x8x16.rank)
  reducesTo_S1x50000x8x16_S_d0_1_2_3 : S1x50000x8x16.ReducesTo [0, 1, 2, 3] S_
  h_S_ : 0 < S_.numel

variable [Facts]

def fn {F : FTy → Type} [FloatOps F] (main_arg0 : FVec F S1x50000x8x16 .f32) (main_arg1 : FVec F S1x50000x8x16 .f32) (main_arg2 : FVec F S1x50000x8x16 .f32) (main_arg3 : IVec S2x800000 32) : IVec S_ 1 :=
  let main_v0 : FVec F S1x50000x8x16 .f32 := Host.absf main_arg0
  let main_cst : FVec F S_ .f32 := constant S_ .f32 0x7F800000#32
  let main_v1 : FVec F S1x50000x8x16 .f32 := broadcastInDim S1x50000x8x16 ![] bcast_S_S1x50000x8x16 main_cst
  let main_v2 : IVec S1x50000x8x16 1 := cmpf .olt main_v0 main_v1
  let main_c : IVec S_ 1 := constantI S_ 1 1#1
  let main_v3 : IVec S_ 1 := (fun x v => Host.reduce IntOp.andi x v reducesTo_S1x50000x8x16_S_d0_1_2_3 h_S_) main_v2 main_c
  let main_v4 : FVec F S1x50000x8x16 .f32 := Host.absf main_arg1
  let main_cst_0 : FVec F S_ .f32 := constant S_ .f32 0x7F800000#32
  let main_v5 : FVec F S1x50000x8x16 .f32 := broadcastInDim S1x50000x8x16 ![] bcast_S_S1x50000x8x16 main_cst_0
  let main_v6 : IVec S1x50000x8x16 1 := cmpf .olt main_v4 main_v5
  let main_c_1 : IVec S_ 1 := constantI S_ 1 1#1
  let main_v7 : IVec S_ 1 := (fun x v => Host.reduce IntOp.andi x v reducesTo_S1x50000x8x16_S_d0_1_2_3 h_S_) main_v6 main_c_1
  let main_v8 : IVec S_ 1 := andi main_v3 main_v7
  let main_v9 : FVec F S1x50000x8x16 .f32 := Host.absf main_arg2
  let main_cst_2 : FVec F S_ .f32 := constant S_ .f32 0x7F800000#32
  let main_v10 : FVec F S1x50000x8x16 .f32 := broadcastInDim S1x50000x8x16 ![] bcast_S_S1x50000x8x16 main_cst_2
  let main_v11 : IVec S1x50000x8x16 1 := cmpf .olt main_v9 main_v10
  let main_c_3 : IVec S_ 1 := constantI S_ 1 1#1
  let main_v12 : IVec S_ 1 := (fun x v => Host.reduce IntOp.andi x v reducesTo_S1x50000x8x16_S_d0_1_2_3 h_S_) main_v11 main_c_3
  let main_v13 : IVec S_ 1 := andi main_v8 main_v12
  main_v13
-- ==== Kernel.lean ====
abbrev S1x50000x8x16 : Shape := ⟨4, ![1, 50000, 8, 16]⟩
abbrev S2x800000 : Shape := ⟨2, ![2, 800000]⟩
abbrev S50000x8x16 : Shape := ⟨3, ![50000, 8, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x8x16 : Shape := ⟨3, ![800000, 8, 16]⟩
abbrev S500x8x16 : Shape := ⟨3, ![500, 8, 16]⟩
abbrev S500x8 : Shape := ⟨2, ![500, 8]⟩
abbrev S500x8x1 : Shape := ⟨3, ![500, 8, 1]⟩
abbrev S1x50000x128 : Shape := ⟨3, ![1, 50000, 128]⟩

abbrev nBuf : Space → Nat
  | .hbm => 53
  | .vmem => 10
  | .smem => 0
  | _ => 0

abbrev bufTy : (tb : Table) → Fin (tcTables nBuf tb) → BufTy
  | .hbm, ⟨0, _⟩ => ⟨S1x50000x8x16, .f32⟩
  | .hbm, ⟨1, _⟩ => ⟨S1x50000x8x16, .f32⟩
  | .hbm, ⟨2, _⟩ => ⟨S1x50000x8x16, .f32⟩
  | .hbm, ⟨3, _⟩ => ⟨S2x800000, .i32⟩
  | .hbm, ⟨4, _⟩ => ⟨S50000x8x16, .f32⟩
  | .hbm, ⟨5, _⟩ => ⟨S50000x8x16, .f32⟩
  | .hbm, ⟨6, _⟩ => ⟨S50000x8x16, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x8x16, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x8x16, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x8x16, .f32⟩
  | .hbm, ⟨38, _⟩ => ⟨S800000x8x16, .f32⟩
  | .hbm, ⟨39, _⟩ => ⟨S800000x8x16, .f32⟩
  | .hbm, ⟨40, _⟩ => ⟨S_, .f32⟩
  | .hbm, ⟨41, _⟩ => ⟨S50000x8x16, .f32⟩
  | .hbm, ⟨42, _⟩ => ⟨S800000x1, .i32⟩
  | .hbm, ⟨43, _⟩ => ⟨S50000x8x16, .f32⟩
  | .hbm, ⟨44, _⟩ => ⟨S_, .f32⟩
  | .hbm, ⟨45, _⟩ => ⟨S50000x8x16, .f32⟩
  | .hbm, ⟨46, _⟩ => ⟨S800000x1, .i32⟩
  | .hbm, ⟨47, _⟩ => ⟨S50000x8x16, .f32⟩
  | .hbm, ⟨48, _⟩ => ⟨S_, .f32⟩
  | .hbm, ⟨49, _⟩ => ⟨S50000x8x16, .f32⟩
  | .hbm, ⟨50, _⟩ => ⟨S50000x8x16, .f32⟩
  | .hbm, ⟨51, _⟩ => ⟨S50000x8x16, .f32⟩
  | .hbm, ⟨52, _⟩ => ⟨S1x50000x128, .f32⟩
  | .local _ .vmem, ⟨0, _⟩ => ⟨S500x8x16, .f32⟩
  | .local _ .vmem, ⟨1, _⟩ => ⟨S500x8x16, .f32⟩
  | .local _ .vmem, ⟨2, _⟩ => ⟨S500x8x16, .f32⟩
  | .local _ .vmem, ⟨3, _⟩ => ⟨S500x8x16, .f32⟩
  | .local _ .vmem, ⟨4, _⟩ => ⟨S500x8x16, .f32⟩
  | .local _ .vmem, ⟨5, _⟩ => ⟨S500x8x16, .f32⟩
  | .local _ .vmem, ⟨6, _⟩ => ⟨S500x8x16, .f32⟩
  | .local _ .vmem, ⟨7, _⟩ => ⟨S500x8x16, .f32⟩
  | .local _ .vmem, ⟨8, _⟩ => ⟨S500x8x16, .f32⟩
  | .local _ .vmem, ⟨9, _⟩ => ⟨S500x8x16, .f32⟩
  | _, _ => ⟨S1x50000x8x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev main_cst : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![1600], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S500x8x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S500x8x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S500x8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S500x8x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S500x8x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x50000x8x16_S50000x8x16 : S1x50000x8x16.ShapeCasts S50000x8x16
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S500x8x16_S500x8x16_0_0_0 : ∀ a, (![0, 0, 0] : Fin 3 → Nat) a + S500x8x16.size a ≤ S500x8x16.size a
  h_S500x8x16 : 0 < S500x8x16.numel
  shapeCasts_S500x8x16_S500x8x16 : S500x8x16.ShapeCasts S500x8x16
  reduces_S500x8x16_S500x8 : S500x8x16.Reduces [2] S500x8
  shapeCasts_S500x8_S500x8x1 : S500x8.ShapeCasts S500x8x1
  shapeCasts_S500x8x1_S500x8x1 : S500x8x1.ShapeCasts S500x8x1
  broadcasts_S500x8x1_S500x8x16 : S500x8x1.Broadcasts S500x8x16
  bcast_S_S50000x8x16 : S_.BroadcastsInDim S50000x8x16 (![] : Fin 0 → Fin S50000x8x16.rank)
  shapeCasts_S50000x8x16_S1x50000x128 : S50000x8x16.ShapeCasts S1x50000x128
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S500x8x16.size a ≤ S800000x8x16.size a
  hwx0_0 : ∀ i : grid0.Coords, EltTy.bits .f32 = 32 ∨ (Rect.block (s := S800000x8x16) S500x8x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S500x8x16.size a ≤ S800000x8x16.size a
  hwx0_1 : ∀ i : grid0.Coords, EltTy.bits .f32 = 32 ∨ (Rect.block (s := S800000x8x16) S500x8x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S500x8x16.size a ≤ S800000x8x16.size a
  hwx0_2 : ∀ i : grid0.Coords, EltTy.bits .f32 = 32 ∨ (Rect.block (s := S800000x8x16) S500x8x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S500x8x16.size a ≤ S800000x8x16.size a
  hwx0_3 : ∀ i : grid0.Coords, EltTy.bits .f32 = 32 ∨ (Rect.block (s := S800000x8x16) S500x8x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S500x8x16.size a ≤ S800000x8x16.size a
  hwx0_4 : ∀ i : grid0.Coords, EltTy.bits .f32 = 32 ∨ (Rect.block (s := S800000x8x16) S500x8x16.size (cc0_transform_4 i) (hinb0_4 i)).WholeWords (EltTy.packing .f32)

variable [Facts₀]

def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf

abbrev win0_0 : Pipeline.Window sig grid0 :=
  Pipeline.Window.ofSpec (Memref.whole main_v13) S500x8x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S500x8x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S500x8x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28_0) S500x8x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28_1) S500x8x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x50000x8x16 : Shape := ⟨4, ![1, 50000, 8, 16]⟩
abbrev S2x800000 : Shape := ⟨2, ![2, 800000]⟩
abbrev S50000x8x16 : Shape := ⟨3, ![50000, 8, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x8x16 : Shape := ⟨3, ![800000, 8, 16]⟩
abbrev S800000x8 : Shape := ⟨2, ![800000, 8]⟩
abbrev S800000x8x1 : Shape := ⟨3, ![800000, 8, 1]⟩
abbrev S50000x8x1 : Shape := ⟨3, ![50000, 8, 1]⟩
abbrev S1x50000x128 : Shape := ⟨3, ![1, 50000, 128]⟩

abbrev nBuf : Space → Nat
  | .hbm => 70
  | .vmem => 0
  | .smem => 0
  | _ => 0

abbrev bufTy : (tb : Table) → Fin (tcTables nBuf tb) → BufTy
  | .hbm, ⟨0, _⟩ => ⟨S1x50000x8x16, .f32⟩
  | .hbm, ⟨1, _⟩ => ⟨S1x50000x8x16, .f32⟩
  | .hbm, ⟨2, _⟩ => ⟨S1x50000x8x16, .f32⟩
  | .hbm, ⟨3, _⟩ => ⟨S2x800000, .i32⟩
  | .hbm, ⟨4, _⟩ => ⟨S50000x8x16, .f32⟩
  | .hbm, ⟨5, _⟩ => ⟨S50000x8x16, .f32⟩
  | .hbm, ⟨6, _⟩ => ⟨S50000x8x16, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x8x16, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x8x16, .f32⟩
  | .hbm, ⟨29, _⟩ => ⟨S800000x8x16, .f32⟩
  | .hbm, ⟨30, _⟩ => ⟨S_, .f32⟩
  | .hbm, ⟨31, _⟩ => ⟨S800000x8, .f32⟩
  | .hbm, ⟨32, _⟩ => ⟨S800000x8x1, .f32⟩
  | .hbm, ⟨33, _⟩ => ⟨S_, .f32⟩
  | .hbm, ⟨34, _⟩ => ⟨S800000x8x1, .f32⟩
  | .hbm, ⟨35, _⟩ => ⟨S800000x8x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S800000x8x1, .f32⟩
  | .hbm, ⟨40, _⟩ => ⟨S800000x8x1, .f32⟩
  | .hbm, ⟨41, _⟩ => ⟨S_, .f32⟩
  | .hbm, ⟨42, _⟩ => ⟨S800000x8x1, .f32⟩
  | .hbm, ⟨43, _⟩ => ⟨S800000x8x1, .f32⟩
  | .hbm, ⟨44, _⟩ => ⟨S800000x8x1, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x8x16, .f32⟩
  | .hbm, ⟨54, _⟩ => ⟨S800000x8x16, .f32⟩
  | .hbm, ⟨55, _⟩ => ⟨S800000x8x16, .f32⟩
  | .hbm, ⟨56, _⟩ => ⟨S_, .f32⟩
  | .hbm, ⟨57, _⟩ => ⟨S50000x8x16, .f32⟩
  | .hbm, ⟨58, _⟩ => ⟨S800000x1, .i32⟩
  | .hbm, ⟨59, _⟩ => ⟨S50000x8x16, .f32⟩
  | .hbm, ⟨60, _⟩ => ⟨S_, .f32⟩
  | .hbm, ⟨61, _⟩ => ⟨S50000x8x1, .f32⟩
  | .hbm, ⟨62, _⟩ => ⟨S800000x1, .i32⟩
  | .hbm, ⟨63, _⟩ => ⟨S50000x8x1, .f32⟩
  | .hbm, ⟨64, _⟩ => ⟨S_, .f32⟩
  | .hbm, ⟨65, _⟩ => ⟨S50000x8x1, .f32⟩
  | .hbm, ⟨66, _⟩ => ⟨S50000x8x1, .f32⟩
  | .hbm, ⟨67, _⟩ => ⟨S50000x8x16, .f32⟩
  | .hbm, ⟨68, _⟩ => ⟨S50000x8x16, .f32⟩
  | .hbm, ⟨69, _⟩ => ⟨S1x50000x128, .f32⟩
  | _, _ => ⟨S1x50000x8x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  shapeCasts_S1x50000x8x16_S50000x8x16 : S1x50000x8x16.ShapeCasts S50000x8x16
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S50000x8x16_S1x50000x128 : S50000x8x16.ShapeCasts S1x50000x128
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1

variable [Facts₀]

def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

class Facts : Prop extends Facts₀ where

variable [Facts]
-- ==== Proof.Weights.lean ====
/-
  The mathematics both programs compute, on the extended reals, as functions of the three gathered arrays.

  For an edge `e` and a head `h` the WEIGHT is `exp (clip (⟨k_src(e), q_dst(e)⟩_h · s, −5, 5))`: the dot product over the 16
  lanes of head `h` of the gathered key row and the gathered query row, scaled, clipped and exponentiated. One program
  scales by multiplying with the word `0.25`, the other by dividing by the word `4.0`; on the extended reals these agree
  for EVERY value of the dot product, infinite ones included (`div_four`), so no finiteness of the inputs is used.
  The MESSAGE of edge `e` at `(h, d)` is the gathered value row's entry times the weight.
-/
import Idealize.ShloMosaic.Lib.ValueIdx
import Idealize.ShloMosaic.PureOps.Ideal.Laws

noncomputable section

open scoped BigOperators

namespace Cert.EdgeWeights

open Idealize.ShloMosaic Idealize.ShloMosaic.ValueIdx

/-- The word `4.0` denotes the real 4. -/
theorem ofBits_four : Ideal.ofBits .f32 0x40800000#32 = ((4 : ℝ) : EReal) := by
  simp [Ideal.ofBits, Ideal.ieee, -EReal.coe_mul]; norm_num

/-- The word `0.25` denotes the real 1/4. -/
theorem ofBits_quarter : Ideal.ofBits .f32 0x3E800000#32 = ((1 / 4 : ℝ) : EReal) := by
  simp [Ideal.ofBits, Ideal.ieee, -EReal.coe_mul]; norm_num

/-- Dividing by `4.0` is multiplying by `0.25`, at every extended real. -/
theorem div_four (x : EReal) :
    Ideal.div x (Ideal.ofBits .f32 0x40800000#32) = x * Ideal.ofBits .f32 0x3E800000#32 := by
  rw [ofBits_four, ofBits_quarter]
  exact Ideal.div_coe (by norm_num) x

section
variable {R : Nat}

/-- The dot product over the 16 lanes of head `h` of rows `e` of `A` and `B`. -/
def dot (A B : (⟨3, ![R, 8, 16]⟩ : Shape).Idx → EReal) (e : Fin R) (h : Fin 8) : EReal :=
  ∑ k : Fin 16, A (ix3 e h k) * B (ix3 e h k)

/-- The weight of row `e` at head `h`: the scaled dot product clipped to [−5, 5], exponentiated. -/
def weight (A B : (⟨3, ![R, 8, 16]⟩ : Shape).Idx → EReal) (e : Fin R) (h : Fin 8) : EReal :=
  Ideal.exp (min (Ideal.ofBits .f32 0x40A00000#32) (max (Ideal.ofBits .f32 0xC0A00000#32)
    (dot A B e h * Ideal.ofBits .f32 0x3E800000#32)))

/-- The weight replicated over the 16 lanes of its head. -/
def weightRep (A B : (⟨3, ![R, 8, 16]⟩ : Shape).Idx → EReal) : (⟨3, ![R, 8, 16]⟩ : Shape).Idx → EReal :=
  fun i => weight A B (i 0) (i 1)

/-- The message: the value row's entry times the weight of its row and head. -/
def message (A B C : (⟨3, ![R, 8, 16]⟩ : Shape).Idx → EReal) : (⟨3, ![R, 8, 16]⟩ : Shape).Idx → EReal :=
  fun i => C i * weight A B (i 0) (i 1)

/-- The weight depends only on the two rows it reads: rows that agree lane by lane give the same weight. -/
theorem weight_congr {R' : Nat} (A B : (⟨3, ![R, 8, 16]⟩ : Shape).Idx → EReal)
    (A' B' : (⟨3, ![R', 8, 16]⟩ : Shape).Idx → EReal) (e : Fin R) (e' : Fin R') (h : Fin 8)
    (hA : ∀ k : Fin 16, A (ix3 e h k) = A' (ix3 e' h k)) (hB : ∀ k : Fin 16, B (ix3 e h k) = B' (ix3 e' h k)) :
    weight A B e h = weight A' B' e' h := by
  unfold weight dot
  simp only [hA, hB]

end

end Cert.EdgeWeights

end
-- ==== Proof.KernelPayload.lean ====
/-
  What the kernel body stores, entry by entry, on the extended reals.

  The body loads three blocks of 500 rows — gathered key rows `x0`, gathered query rows `x2`, gathered value rows `x4` —
  and stores two: the weight `exp (clip (⟨x0[p], x2[p]⟩_q · 0.25, −5, 5))` of row `p` and head `q` replicated over the 16
  lanes of the head, and the value row's entry times that weight. The lane sum is a sum over the third coordinate; the
  shape casts around it only add or keep the unit lane axis, and the broadcast reads lane 0 of it.
-/
import proofs.«128621_j31327491457419_2_alg».proof.Proof.Gen.KernelIdeal.Skeleton
import proofs.«128621_j31327491457419_2_alg».proof.Proof.Weights
import Idealize.ShloMosaic.Lib.Pipeline.Value
import Idealize.ShloMosaic.Lib.ValueIdx
import Idealize.ShloMosaic.PureOps.Ideal.Laws

noncomputable section
open scoped BigOperators
namespace Cert.KernelIdeal.Payload
open Idealize.ShloMosaic Idealize.ShloMosaic.ValueIdx Cert.KernelIdeal Cert.KernelIdeal.Gen

/-- The lane sum of a block's products at `(p, q)` is the dot product of the two rows. -/
theorem lane_sum (x0 x2 : Vec Ideal S500x8x16 .f32) (hφ : FKind.Formats .f32)
    (hacc : (0x00000000#32 : BitVec 32) = FKind.add.neutral .f32 hφ) (p : Fin 500) (q : Fin 8) :
    multiReduction (F := Ideal) .add [2] S500x8
        (mulf (shapeCast S500x8x16 x0 shapeCasts_S500x8x16_S500x8x16) (shapeCast S500x8x16 x2 shapeCasts_S500x8x16_S500x8x16))
        0x00000000#32 reduces_S500x8x16_S500x8 hφ hacc (ix2 p q)
      = Cert.EdgeWeights.dot x0 x2 p q := by
  refine (Ideal.multiReduction_add_single _ _ reduces_S500x8x16_S500x8 hφ hacc (ix2 p q)).trans ?_
  unfold Cert.EdgeWeights.dot
  refine Finset.sum_congr rfl fun k _ => ?_
  rw [shapeCast_self, shapeCast_self]
  have e : reduces_S500x8x16_S500x8.lift (ix2 p q) k = ix3 p q k :=
    funext fun a => Fin.ext (by match a with | ⟨0, _⟩ => rfl | ⟨1, _⟩ => rfl | ⟨2, _⟩ => rfl)
  rw [e]
  rfl

/-- The second stored value at `(p, q, r)`: the weight of row `p` and head `q` of the two blocks, whatever the lane `r`. -/
theorem pay1_apply (x0 x2 : Vec Ideal S500x8x16 .f32) (p : Fin 500) (q : Fin 8) (r : Fin 16) :
    k0_pay1 (F := Ideal) x0 x2 (ix3 p q r) = Cert.EdgeWeights.weight x0 x2 p q := by
  unfold k0_pay1
  dsimp only
  refine (broadcastTo_apply _ broadcasts_S500x8x1_S500x8x16 (ix3 p q r) (ix3 p q ⟨0, Nat.one_pos⟩) (fun a => by
    match a with
    | ⟨0, _⟩ => show p.val = if (500 : Nat) = 1 then 0 else p.val; rw [if_neg (by decide)]
    | ⟨1, _⟩ => show q.val = if (8 : Nat) = 1 then 0 else q.val; rw [if_neg (by decide)]
    | ⟨2, _⟩ => show 0 = if (1 : Nat) = 1 then 0 else r.val; rw [if_pos rfl])).trans ?_
  refine (congrFun (shapeCast_self _ shapeCasts_S500x8x1_S500x8x1) _).trans ?_
  unfold Cert.EdgeWeights.weight
  refine congrArg Ideal.exp (congrArg (min _) (congrArg (max _) (congrArg (· * _) ?_)))
  refine (shapeCast_apply _ shapeCasts_S500x8_S500x8x1 (ix3 p q ⟨0, Nat.one_pos⟩) (ix2 p q) (by
    rw [Shape.rowMajor_val_two, Shape.rowMajor_val_three]
    show p.val * 8 + q.val = (p.val * 8 + q.val) * 1 + 0
    omega)).trans ?_
  exact lane_sum x0 x2 _ _ p q

/-- The first stored value at `(p, q, r)`: the value block's entry times that weight. -/
theorem pay2_apply (x0 x2 x4 : Vec Ideal S500x8x16 .f32) (p : Fin 500) (q : Fin 8) (r : Fin 16) :
    k0_pay2 (F := Ideal) x0 x2 x4 (ix3 p q r) = x4 (ix3 p q r) * Cert.EdgeWeights.weight x0 x2 p q := by
  unfold k0_pay2
  rw [shapeCast_self]
  show x4 (ix3 p q r) * k0_pay1 (F := Ideal) x0 x2 (ix3 p q r) = _
  rw [pay1_apply]

end Cert.KernelIdeal.Payload
end
-- ==== Proof.KernelBlocks.lean ====
/-
  From blocks to arrays: the two arrays the kernel region writes, each as ONE function of the three gathered arrays.

  The grid has 1600 points; at point `t` every window's block is rows `500 t … 500 t + 499` of its array, all heads and
  lanes. So entry `(p, q, r)` of a block is entry `(500 t + p, q, r)` of the array, the weight the body computes for row
  `p` of its blocks is the weight of row `500 t + p` of the gathered arrays, and what point `t` writes back is block `t`
  of the message array (window 3) and of the replicated weights (window 4). Row `n` lies in the block of point `n / 500`,
  so the blocks cover both arrays.
-/
import proofs.«128621_j31327491457419_2_alg».proof.Proof.Gen.KernelIdeal.Frame
import proofs.«128621_j31327491457419_2_alg».proof.Proof.KernelPayload
import Idealize.ShloMosaic.Lib.Pipeline.Value

noncomputable section

open scoped BigOperators

namespace Cert.KernelIdeal.Blocks

open Idealize.ShloMosaic Idealize.ShloMosaic.TcCoe Idealize.ShloMosaic.ValueIdx Idealize.SL.Sem
open Cert.KernelIdeal Cert.KernelIdeal.Gen Cert.EdgeWeights

variable (m : (ℓ : Loc nD τ sig) → Buf (Elt Ideal) ℓ)

theorem hz : (![0, 0, 0] : Fin 3 → Nat) = fun _ => 0 := funext fun a => by fin_cases a <;> rfl

/-- The printed index maps, decided over the grid: every window's block at point `t` is block `t` along the rows and
    the only block along heads and lanes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem t_lt (t : Fin cfg0.N) : t.val < 1600 := by
  have hN : grid0.N = 1600 := N_0
  have h : t.val < grid0.N := t.isLt
  omega

/-- Entry `y` of block `T` as an entry of the whole array: row `500 T` plus the row inside the block. -/
def rowAt (T : Nat) (hT : T < 1600) (y : S500x8x16.Idx) : S800000x8x16.Idx :=
  ix3 ⟨T * 500 + (y 0).val, by have := (y 0).isLt; show T * 500 + (y 0).val < 800000; have : (y 0).val < 500 := (y 0).isLt; omega⟩
    (y 1) (y 2)

/-- Where each window's block at point `t` sits in its array. -/
theorem emb0 (t : Fin cfg0.N) (y : S500x8x16.Idx) : ((cfg0.win 0).blk t).view.emb y = rowAt t.val (t_lt t) y := by
  obtain ⟨e00, e01, e02, -⟩ := idx_facts t
  funext a; apply Fin.ext
  match a with
  | ⟨0, _⟩ => show win0_0.index t (0 : Fin 3) * 500 + 1 * (y 0).val = t.val * 500 + (y 0).val; omega
  | ⟨1, _⟩ => show win0_0.index t (1 : Fin 3) * 8 + 1 * (y 1).val = (y 1).val; omega
  | ⟨2, _⟩ => show win0_0.index t (2 : Fin 3) * 16 + 1 * (y 2).val = (y 2).val; omega
theorem emb1 (t : Fin cfg0.N) (y : S500x8x16.Idx) : ((cfg0.win 1).blk t).view.emb y = rowAt t.val (t_lt t) y := by
  obtain ⟨-, -, -, e10, e11, e12, -⟩ := idx_facts t
  funext a; apply Fin.ext
  match a with
  | ⟨0, _⟩ => show win0_1.index t (0 : Fin 3) * 500 + 1 * (y 0).val = t.val * 500 + (y 0).val; omega
  | ⟨1, _⟩ => show win0_1.index t (1 : Fin 3) * 8 + 1 * (y 1).val = (y 1).val; omega
  | ⟨2, _⟩ => show win0_1.index t (2 : Fin 3) * 16 + 1 * (y 2).val = (y 2).val; omega
theorem emb2 (t : Fin cfg0.N) (y : S500x8x16.Idx) : ((cfg0.win 2).blk t).view.emb y = rowAt t.val (t_lt t) y := by
  obtain ⟨-, -, -, -, -, -, e20, e21, e22, -⟩ := idx_facts t
  funext a; apply Fin.ext
  match a with
  | ⟨0, _⟩ => show win0_2.index t (0 : Fin 3) * 500 + 1 * (y 0).val = t.val * 500 + (y 0).val; omega
  | ⟨1, _⟩ => show win0_2.index t (1 : Fin 3) * 8 + 1 * (y 1).val = (y 1).val; omega
  | ⟨2, _⟩ => show win0_2.index t (2 : Fin 3) * 16 + 1 * (y 2).val = (y 2).val; omega
theorem emb3 (t : Fin cfg0.N) (y : S500x8x16.Idx) : ((cfg0.win 3).blk t).view.emb y = rowAt t.val (t_lt t) y := by
  obtain ⟨-, -, -, -, -, -, -, -, -, e30, e31, e32, -⟩ := idx_facts t
  funext a; apply Fin.ext
  match a with
  | ⟨0, _⟩ => show win0_3.index t (0 : Fin 3) * 500 + 1 * (y 0).val = t.val * 500 + (y 0).val; omega
  | ⟨1, _⟩ => show win0_3.index t (1 : Fin 3) * 8 + 1 * (y 1).val = (y 1).val; omega
  | ⟨2, _⟩ => show win0_3.index t (2 : Fin 3) * 16 + 1 * (y 2).val = (y 2).val; omega
theorem emb4 (t : Fin cfg0.N) (y : S500x8x16.Idx) : ((cfg0.win 4).blk t).view.emb y = rowAt t.val (t_lt t) y := by
  obtain ⟨-, -, -, -, -, -, -, -, -, -, -, -, e40, e41, e42⟩ := idx_facts t
  funext a; apply Fin.ext
  match a with
  | ⟨0, _⟩ => show win0_4.index t (0 : Fin 3) * 500 + 1 * (y 0).val = t.val * 500 + (y 0).val; omega
  | ⟨1, _⟩ => show win0_4.index t (1 : Fin 3) * 8 + 1 * (y 1).val = (y 1).val; omega
  | ⟨2, _⟩ => show win0_4.index t (2 : Fin 3) * 16 + 1 * (y 2).val = (y 2).val; omega

/-- Each input block is its gathered array read at the block's rows. -/
theorem iblk0_at (c : Dev nD) (t : Fin cfg0.N) (y : S500x8x16.Idx) :
    iblk m c 0 t y = V m c main_v13 (rowAt t.val (t_lt t) y) := by
  show V m c main_v13 (((cfg0.win 0).blk t).view.emb y) = _
  rw [emb0]
theorem iblk1_at (c : Dev nD) (t : Fin cfg0.N) (y : S500x8x16.Idx) :
    iblk m c 1 t y = V m c main_v20 (rowAt t.val (t_lt t) y) := by
  show V m c main_v20 (((cfg0.win 1).blk t).view.emb y) = _
  rw [emb1]
theorem iblk2_at (c : Dev nD) (t : Fin cfg0.N) (y : S500x8x16.Idx) :
    iblk m c 2 t y = V m c main_v27 (rowAt t.val (t_lt t) y) := by
  show V m c main_v27 (((cfg0.win 2).blk t).view.emb y) = _
  rw [emb2]

/-- The body's two stored values on blocks that are rows `500 T …` of arrays `A`, `B`, `C`: the replicated weights and the
    messages of those arrays, read at the block's rows. Stated over plain blocks and arrays. -/
theorem pay1_block (x0 x1 : Vec Ideal S500x8x16 .f32) (A B : S800000x8x16.Idx → EReal) (T : Nat) (hT : T < 1600)
    (h0 : ∀ y, x0 y = A (rowAt T hT y)) (h1 : ∀ y, x1 y = B (rowAt T hT y)) (y : S500x8x16.Idx) :
    k0_pay1 (F := Ideal) x0 x1 y = weightRep A B (rowAt T hT y) := by
  obtain ⟨p, q, r, rfl⟩ : ∃ (p : Fin 500) (q : Fin 8) (r : Fin 16), y = ix3 p q r := ⟨y 0, y 1, y 2, eq_ix3 y⟩
  rw [Cert.KernelIdeal.Payload.pay1_apply]
  unfold weightRep
  exact weight_congr x0 x1 A B p _ q (fun k => h0 (ix3 p q k)) (fun k => h1 (ix3 p q k))

theorem pay2_block (x0 x1 x2 : Vec Ideal S500x8x16 .f32) (A B C : S800000x8x16.Idx → EReal) (T : Nat) (hT : T < 1600)
    (h0 : ∀ y, x0 y = A (rowAt T hT y)) (h1 : ∀ y, x1 y = B (rowAt T hT y)) (h2 : ∀ y, x2 y = C (rowAt T hT y))
    (y : S500x8x16.Idx) :
    k0_pay2 (F := Ideal) x0 x1 x2 y = message A B C (rowAt T hT y) := by
  obtain ⟨p, q, r, rfl⟩ : ∃ (p : Fin 500) (q : Fin 8) (r : Fin 16), y = ix3 p q r := ⟨y 0, y 1, y 2, eq_ix3 y⟩
  rw [Cert.KernelIdeal.Payload.pay2_apply]
  unfold message
  rw [h2]
  exact congrArg (C (rowAt T hT (ix3 p q r)) * ·)
    (weight_congr x0 x1 A B p _ q (fun k => h0 (ix3 p q k)) (fun k => h1 (ix3 p q k)))

/-- WHAT POINT `t` WRITES BACK through window 3 is block `t` of the messages of the gathered arrays. -/
theorem flushed3_eq (c : Dev nD) (t : Fin cfg0.N) :
    (dats m 0 c).flushed 3 t = ((cfg0.win 3).blk t).view.read (Elt Ideal)
      (message (V m c main_v13) (V m c main_v20) (V m c main_v27)) := by
  show (cfg0.win 3).cut (grid0.coords t) ((dats m 0 c).after 3 t) = _
  rw [after0_3]
  unfold out0_3
  rw [View.canon_unit_zero hz]
  simp only [View.ld_unit_zero (S := S500x8x16) hz]
  funext j
  show k0_pay2 (F := Ideal) (iblk m c 0 t) (iblk m c 1 t) (iblk m c 2 t) j
    = message (V m c main_v13) (V m c main_v20) (V m c main_v27) (((cfg0.win 3).blk t).view.emb j)
  rw [emb3]
  exact pay2_block (iblk m c 0 t) (iblk m c 1 t) (iblk m c 2 t) (V m c main_v13) (V m c main_v20) (V m c main_v27)
    t.val (t_lt t) (iblk0_at m c t) (iblk1_at m c t) (iblk2_at m c t) j

/-- WHAT POINT `t` WRITES BACK through window 4 is block `t` of the replicated weights of the gathered arrays. -/
theorem flushed4_eq (c : Dev nD) (t : Fin cfg0.N) :
    (dats m 0 c).flushed 4 t = ((cfg0.win 4).blk t).view.read (Elt Ideal)
      (weightRep (V m c main_v13) (V m c main_v20)) := by
  show (cfg0.win 4).cut (grid0.coords t) ((dats m 0 c).after 4 t) = _
  rw [after0_4]
  unfold out0_4
  rw [View.canon_unit_zero hz]
  simp only [View.ld_unit_zero (S := S500x8x16) hz]
  funext j
  show k0_pay1 (F := Ideal) (iblk m c 0 t) (iblk m c 1 t) j
    = weightRep (V m c main_v13) (V m c main_v20) (((cfg0.win 4).blk t).view.emb j)
  rw [emb4]
  exact pay1_block (iblk m c 0 t) (iblk m c 1 t) (V m c main_v13) (V m c main_v20)
    t.val (t_lt t) (iblk0_at m c t) (iblk1_at m c t) j

/-- An index of the array is in point `t`'s block iff each coordinate is in the block's range on its axis. -/
theorem mem_blk3 (t : Fin cfg0.N) (i : S800000x8x16.Idx) :
    i ∈ ((cfg0.win 3).blk t).view.set ↔ ∀ a : Fin 3, win0_3.index t a * S500x8x16.size a ≤ (i a).val
      ∧ (i a).val < win0_3.index t a * S500x8x16.size a + S500x8x16.size a := by
  show i ∈ ((View.whole main_v28_0).slice (win0_3.rect t)).set ↔ _
  rw [View.set_slice_whole, Rect.mem_set_unit]
  exact Iff.rfl
theorem mem_blk4 (t : Fin cfg0.N) (i : S800000x8x16.Idx) :
    i ∈ ((cfg0.win 4).blk t).view.set ↔ ∀ a : Fin 3, win0_4.index t a * S500x8x16.size a ≤ (i a).val
      ∧ (i a).val < win0_4.index t a * S500x8x16.size a + S500x8x16.size a := by
  show i ∈ ((View.whole main_v28_1).slice (win0_4.rect t)).set ↔ _
  rw [View.set_slice_whole, Rect.mem_set_unit]
  exact Iff.rfl

/-- Row `n` is in the block of point `n / 500`. -/
def pointOf (i : S800000x8x16.Idx) : Fin cfg0.N :=
  ⟨(i 0).val / 500, by
    have hN : grid0.N = 1600 := N_0
    have : (i 0).val < 800000 := (i 0).isLt
    show (i 0).val / 500 < grid0.N
    omega⟩

theorem cover3 (i : S800000x8x16.Idx) :
    ∃ t : Fin cfg0.N, (cfg0.win 3).flush t = true ∧ i ∈ ((cfg0.win 3).blk t).view.set := by
  refine ⟨pointOf i, flush0_3 _, ?_⟩
  rw [mem_blk3]
  obtain ⟨-, -, -, -, -, -, -, -, -, e30, e31, e32, -⟩ := idx_facts (pointOf i)
  have h0 : (i 0).val < 800000 := (i 0).isLt
  have h1 : (i 1).val < 8 := (i 1).isLt
  have h2 : (i 2).val < 16 := (i 2).isLt
  have hp : (pointOf i).val = (i 0).val / 500 := rfl
  intro a
  match a with
  | ⟨0, _⟩ => show win0_3.index (pointOf i) (0 : Fin 3) * 500 ≤ (i 0).val ∧ (i 0).val < win0_3.index (pointOf i) (0 : Fin 3) * 500 + 500; omega
  | ⟨1, _⟩ => show win0_3.index (pointOf i) (1 : Fin 3) * 8 ≤ (i 1).val ∧ (i 1).val < win0_3.index (pointOf i) (1 : Fin 3) * 8 + 8; omega
  | ⟨2, _⟩ => show win0_3.index (pointOf i) (2 : Fin 3) * 16 ≤ (i 2).val ∧ (i 2).val < win0_3.index (pointOf i) (2 : Fin 3) * 16 + 16; omega

theorem cover4 (i : S800000x8x16.Idx) :
    ∃ t : Fin cfg0.N, (cfg0.win 4).flush t = true ∧ i ∈ ((cfg0.win 4).blk t).view.set := by
  refine ⟨pointOf i, flush0_4 _, ?_⟩
  rw [mem_blk4]
  obtain ⟨-, -, -, -, -, -, -, -, -, -, -, -, e40, e41, e42⟩ := idx_facts (pointOf i)
  have h0 : (i 0).val < 800000 := (i 0).isLt
  have h1 : (i 1).val < 8 := (i 1).isLt
  have h2 : (i 2).val < 16 := (i 2).isLt
  have hp : (pointOf i).val = (i 0).val / 500 := rfl
  intro a
  match a with
  | ⟨0, _⟩ => show win0_4.index (pointOf i) (0 : Fin 3) * 500 ≤ (i 0).val ∧ (i 0).val < win0_4.index (pointOf i) (0 : Fin 3) * 500 + 500; omega
  | ⟨1, _⟩ => show win0_4.index (pointOf i) (1 : Fin 3) * 8 ≤ (i 1).val ∧ (i 1).val < win0_4.index (pointOf i) (1 : Fin 3) * 8 + 8; omega
  | ⟨2, _⟩ => show win0_4.index (pointOf i) (2 : Fin 3) * 16 ≤ (i 2).val ∧ (i 2).val < win0_4.index (pointOf i) (2 : Fin 3) * 16 + 16; omega

/-- THE TWO ARRAYS after the region: the messages and the replicated weights of the gathered arrays. -/
theorem final3 (c : Dev nD) :
    (dats m 0 c).arrAt 3 cfg0.N = message (V m c main_v13) (V m c main_v20) (V m c main_v27) :=
  (dats m 0 c).arrAt_eq_of_cover 3 _ (fun t _ => flushed3_eq m c t) cover3
theorem final4 (c : Dev nD) :
    (dats m 0 c).arrAt 4 cfg0.N = weightRep (V m c main_v13) (V m c main_v20) :=
  (dats m 0 c).arrAt_eq_of_cover 4 _ (fun t _ => flushed4_eq m c t) cover4

end Cert.KernelIdeal.Blocks

end
-- ==== Proof.KernelTailDef.lean ====
/-
  The host lines after the kernel region, as ONE function of the scatter's row numbers and the two arrays the region
  wrote: both arrays are scatter-added by destination row into zeros `[N, 8, 16]`, the word `1e-6` is added to the second
  sum, the first is divided by it entry by entry, and the quotient is laid out as `[1, N, 128]`.
-/
import proofs.«128621_j31327491457419_2_alg».proof.Proof.Gen.KernelIdeal
import Idealize.ShloMosaic.PureOps.Ideal

noncomputable section

namespace Cert.KernelIdeal.Tail

open Idealize.ShloMosaic Cert.KernelIdeal Cert.KernelIdeal.Facts₀

/-- The zeros the scatters add into. -/
def zeros : FVec Ideal S50000x8x16 .f32 :=
  broadcastInDim S50000x8x16 ![] bcast_S_S50000x8x16 (constant (F := Ideal) S_ .f32 0x00000000#32)
/-- The word `1e-6` at every entry. -/
def eps : FVec Ideal S50000x8x16 .f32 :=
  broadcastInDim S50000x8x16 ![] bcast_S_S50000x8x16 (constant (F := Ideal) S_ .f32 0x358637BD#32)
/-- The destination row numbers as the column of scatter indices. -/
def rows (seg : IVec S800000 32) : IVec S800000x1 32 :=
  broadcastInDim S800000x1 ![0] bcast_S800000_S800000x1_0 seg

/-- Numerator: the messages summed by destination row. -/
def num (seg : IVec S800000 32) (U3 : FVec Ideal S800000x8x16 .f32) : FVec Ideal S50000x8x16 .f32 :=
  Host.scatterAdd (F := Ideal) scatter_S50000x8x16_S800000x1_S800000x8x16_12_0_0_1 zeros (rows seg) U3
/-- Denominator: the replicated weights summed by destination row, plus `1e-6`. -/
def den (seg : IVec S800000 32) (U4 : FVec Ideal S800000x8x16 .f32) : FVec Ideal S50000x8x16 .f32 :=
  addf (Host.scatterAdd (F := Ideal) scatter_S50000x8x16_S800000x1_S800000x8x16_12_0_0_1 zeros (rows seg) U4) eps

/-- Their quotient entry by entry, laid out as `[1, N, 128]`. -/
def tail (seg : IVec S800000 32) (U3 U4 : FVec Ideal S800000x8x16 .f32) : FVec Ideal S1x50000x128 .f32 :=
  shapeCast S1x50000x128 (Host.divf (F := Ideal) (num seg U3) (den seg U4)) shapeCasts_S50000x8x16_S1x50000x128

end Cert.KernelIdeal.Tail

end
-- ==== Proof.KernelTail.lean ====
/-
  The kernel program's run with its result named: after the region the two output arrays hold the messages and the
  replicated weights of the three gathered arrays (the blocks cover them), the row numbers the scatters read are still
  what the lines before the region computed, and the lines after the region apply the tail function to these three.
-/
import proofs.«128621_j31327491457419_2_alg».proof.Proof.Gen.KernelIdeal.Frame
import proofs.«128621_j31327491457419_2_alg».proof.Proof.KernelBlocks
import proofs.«128621_j31327491457419_2_alg».proof.Proof.KernelTailDef
import Idealize.ShloMosaic.Lib.StableHlo.Run

noncomputable section

namespace Cert.KernelIdeal.Tail

open Idealize.ShloMosaic Idealize.ShloMosaic.TcCoe Idealize.SL.Sem Idealize.ShloMosaic.StableHlo
open Cert.KernelIdeal Cert.KernelIdeal.Gen Cert.EdgeWeights

/-- The lines after the region, run from any contents `W` of the buffers: the result buffer ends at the tail function of
    what `W` holds at the row numbers and at the region's two output arrays. -/
theorem tail_after (W : Valuation τ sig (Elt Ideal)) (seg : IVec S800000 32) (U3 U4 : FVec Ideal S800000x8x16 .f32)
    (h6 : W (Proc.devRef .tc main_v6) = seg) (h3 : W (Proc.devRef .tc main_v28_0) = U3)
    (h4 : W (Proc.devRef .tc main_v28_1) = U4) :
    StableHlo.after (List.flatten [hostOps1 (F := Ideal)]) W (Proc.devRef .tc main_v38) = tail seg U3 U4 := by
  subst h6 h3 h4
  simp only [List.flatten_cons, List.flatten_nil, List.append_nil]
  after_results
  rfl

variable (m : (ℓ : Loc nD τ sig) → Buf (Elt Ideal) ℓ) (ρ : Dev nD → PrngReg)

/-- The result as a function of what the region finds: the tail of the row numbers, the messages and the replicated
    weights of the three gathered arrays. -/
def result (c : Dev nD) : Buf (Elt Ideal) ((c.tc : Thread nD τ).loc main_v38) :=
  tail (V m c main_v6) (message (V m c main_v13) (V m c main_v20) (V m c main_v27))
    (weightRep (V m c main_v13) (V m c main_v20))

/-- After the frame run the result buffer holds `result`. -/
theorem post38 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v38) = result m c := by
  refine ((h c).2 main_v38 (Pipeline.mem_restRefs_of main_v38 (by decide) (by decide))).trans ?_
  unfold Pipeline.afterTail₀ result
  exact tail_after _ _ _ _
    (Pipeline.withArrays_of_ne _ c (V0 m c) _ main_v6 (by exact (by decide : ∀ w, Pipeline.arrRef spec0 w ≠ main_v6)))
    ((Pipeline.withArrays_arr spec0 launch0.win.arr_inj c _ _ 3).trans (Cert.KernelIdeal.Blocks.final3 m c))
    ((Pipeline.withArrays_arr spec0 launch0.win.arr_inj c _ _ 4).trans (Cert.KernelIdeal.Blocks.final4 m c))

/-- THE KERNEL PROGRAM'S RUN, its result named and its arguments unchanged. -/
theorem run : θ_run defs (onTc (τ := τ) (main (F := Ideal))) ⟨m, fun _ => 0, ρ⟩ fun r => ∀ c : Dev nD,
      r.2.mem ((c.tc : Thread nD τ).loc main_v38) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨post38 m r h c,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Tail

end
-- ==== Proof.KernelPrefix.lean ====
/-
  What the kernel region finds in the buffers the host lines before it wrote, as the reference's own stages of the same
  arguments: both programs compute the destination row numbers (row 1 of the edge list), and gather the key rows and the
  value rows at the source indices and the query rows at the destination indices (a negative index first raised by the
  number of nodes), by the same operations in the same order.
-/
import proofs.«128621_j31327491457419_2_alg».proof.Proof.Gen.KernelIdeal.Frame
import proofs.«128621_j31327491457419_2_alg».proof.Proof.Gen.ReferenceIdeal.Read
import Idealize.ShloMosaic.Lib.StableHlo.Run

noncomputable section

namespace Cert.KernelIdeal.Prefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 4000000 in
/-- The destination row numbers. -/
theorem V_v6 (c : Dev nD) :
    V m c main_v6 = Cert.ReferenceIdeal.Read.val_main_v6 (F := Ideal) (m ((c.tc : Thread nD τ).loc main_arg3)) := by
  show StableHlo.after (List.flatten [hostOps0]) (fun b => m (c, b)) (Proc.devRef .tc main_v6) = _
  simp only [List.flatten_cons, List.flatten_nil, List.append_nil]
  after_results_simp
  rfl

set_option maxHeartbeats 4000000 in
/-- The gathered key rows. -/
theorem V_v13 (c : Dev nD) :
    V m c main_v13 = Cert.ReferenceIdeal.Read.val_main_v13 (F := Ideal) (m ((c.tc : Thread nD τ).loc main_arg1))
      (m ((c.tc : Thread nD τ).loc main_arg3)) := by
  show StableHlo.after (List.flatten [hostOps0]) (fun b => m (c, b)) (Proc.devRef .tc main_v13) = _
  simp only [List.flatten_cons, List.flatten_nil, List.append_nil]
  after_results_simp
  rfl

set_option maxHeartbeats 4000000 in
/-- The gathered query rows. -/
theorem V_v20 (c : Dev nD) :
    V m c main_v20 = Cert.ReferenceIdeal.Read.val_main_v20 (F := Ideal) (m ((c.tc : Thread nD τ).loc main_arg0))
      (m ((c.tc : Thread nD τ).loc main_arg3)) := by
  show StableHlo.after (List.flatten [hostOps0]) (fun b => m (c, b)) (Proc.devRef .tc main_v20) = _
  simp only [List.flatten_cons, List.flatten_nil, List.append_nil]
  after_results_simp
  rfl

set_option maxHeartbeats 4000000 in
/-- The gathered value rows. -/
theorem V_v27 (c : Dev nD) :
    V m c main_v27 = Cert.ReferenceIdeal.Read.val_main_v34 (F := Ideal) (m ((c.tc : Thread nD τ).loc main_arg2))
      (m ((c.tc : Thread nD τ).loc main_arg3)) := by
  show StableHlo.after (List.flatten [hostOps0]) (fun b => m (c, b)) (Proc.devRef .tc main_v27) = _
  simp only [List.flatten_cons, List.flatten_nil, List.append_nil]
  after_results_simp
  rfl

end Cert.KernelIdeal.Prefix

end
-- ==== Proof.RefRead.lean ====
/-
  The reference's intermediate arrays, read entry by entry on the extended reals: its per-(edge, head) weight array
  `[E, 8, 1]` holds the weight of the two gathered arrays it multiplies, and its message array the gathered value row's
  entry times that weight. The reference scales the lane sum by dividing by `4.0` and starts the sum from the word `+0.0`;
  both are absorbed here (`0 + s = s`, `s / 4 = s · 0.25` at every extended real).
-/
import proofs.«128621_j31327491457419_2_alg».proof.Proof.Gen.ReferenceIdeal.Read
import proofs.«128621_j31327491457419_2_alg».proof.Proof.Weights

noncomputable section

open scoped BigOperators

namespace Cert.ReferenceIdeal.RefValue

open Idealize.ShloMosaic Idealize.ShloMosaic.ValueIdx
open Cert.ReferenceIdeal Cert.ReferenceIdeal.Read Cert.EdgeWeights

variable (x0 x1 x2 : (⟨S1x50000x8x16, .f32⟩ : BufTy).Contents (Elt Ideal)) (x3 : (⟨S2x800000, .i32⟩ : BufTy).Contents (Elt Ideal))

/-- The reference's lane sum at `(e, h)`: zero plus the dot product of the two gathered rows. -/
theorem ref_dot (i : S800000x8.Idx) :
    val_main_v22 (F := Ideal) x0 x1 x3 i
      = dot (val_main_v13 (F := Ideal) x1 x3) (val_main_v20 (F := Ideal) x0 x3) (i 0) (i 1) := by
  rw [val_main_v22_apply]
  show Ideal.ofBits .f32 0x00000000#32 + _ = _
  rw [Ideal.ofBits_zero_f32, zero_add]
  unfold dot
  refine Finset.sum_congr rfl fun k _ => ?_
  rw [val_main_v21_apply]
  have e : idx_main_v22 i k = ix3 (i 0) (i 1) k :=
    funext fun a => Fin.ext (by match a with | ⟨0, _⟩ => rfl | ⟨1, _⟩ => rfl | ⟨2, _⟩ => rfl)
  rw [e]
  rfl

/-- The reference's weight array at `(e, h, 0)` is the weight of the two gathered arrays at `(e, h)`. -/
theorem ref_weight (i : S800000x8x1.Idx) :
    val_main_v27 (F := Ideal) x0 x1 x3 i
      = weight (val_main_v13 (F := Ideal) x1 x3) (val_main_v20 (F := Ideal) x0 x3) (i 0) (i 1) := by
  rw [val_main_v27_apply, val_main_v26_apply, val_main_call0_v4_apply, val_main_call0_v3_apply, val_main_cst_5_apply,
    val_main_call0_v2_apply, val_main_call0_v1_apply, val_main_call0_v0_apply, val_main_cst_4_apply,
    val_main_v25_apply, val_main_v24_apply, val_main_cst_3_apply, val_main_v23_apply, ref_dot]
  show Ideal.exp (min (Ideal.ofBits .f32 0x40A00000#32) (max (Ideal.ofBits .f32 0xC0A00000#32)
    (Ideal.div (dot (val_main_v13 (F := Ideal) x1 x3) (val_main_v20 (F := Ideal) x0 x3) (i 0) (i 1))
      (Ideal.ofBits .f32 0x40800000#32)))) = _
  rw [div_four]
  rfl

/-- The reference's message array is the message of the three gathered arrays. -/
theorem ref_message :
    val_main_v36 (F := Ideal) x0 x1 x2 x3
      = message (val_main_v13 (F := Ideal) x1 x3) (val_main_v20 (F := Ideal) x0 x3) (val_main_v34 (F := Ideal) x2 x3) := by
  funext i
  rw [val_main_v36_apply, val_main_v35_apply, ref_weight]
  rfl

end Cert.ReferenceIdeal.RefValue

end
-- ==== Proof.LibScatterRows.lean ====
/-
  A float scatter-add of ROWS, read at an index, at the ideal instance.

  `jax.ops.segment_sum(u, seg, num_segments = N)` of updates `u : [E, H, D]` lowers to `stablehlo.scatter` with an
  `add` body into zeros `[N, H, D]`, the scatter indices `seg` as a column `[E, 1]`, update window axes `[1, 2]`,
  inserted window axis `[0]`, the one index component mapped to operand axis `0`, the index vector on axis `1`.
  Update row `e` lands on operand row `seg[e]` (read SIGNED, not clamped: a row outside `[0, N)` is dropped), its
  entry `(h, d)` on entry `(h, d)`. On the extended reals the result's entry `(n, h, d)` is therefore the operand's
  entry plus the sum, over the update rows `e` with `seg[e] = n`, of `u[e, h, d]` — a sum over a set of ROWS that does
  not depend on `(h, d)`, nor on the extents `H` and `D`: two such scatters with the same indices add over the same
  rows, whatever their trailing extents.
-/
import Idealize.ShloMosaic.Lib.ValueIdx

noncomputable section

open scoped BigOperators

namespace Idealize.ShloMosaic.ScatterRows

open Idealize.ShloMosaic Idealize.ShloMosaic.ValueIdx

/-- The dimension numbers of a row scatter: operand `[N, H, D]`, scatter indices `[E, 1]`, updates `[E, H, D]`; their
    conditions `wf` are decided on a program's literal shapes. A printed record with these lists is this one by `rfl`. -/
abbrev rowDims (N H D E : Nat)
    (wf : ScatterDims.WF ⟨3, ![N, H, D]⟩ ⟨2, ![E, 1]⟩ ⟨3, ![E, H, D]⟩ [1, 2] [0] [0] 1) :
    ScatterDims ⟨3, ![N, H, D]⟩ ⟨2, ![E, 1]⟩ ⟨3, ![E, H, D]⟩ where
  updateWindowDims := [1, 2]
  insertedWindowDims := [0]
  scatterDimsToOperandDims := [0]
  indexVectorDim := 1
  wf := wf

/-- Where update row `e` reads its row number: entry `(e, 0)` of the index column. -/
abbrev segIdx {E : Nat} (e : Fin E) : (⟨2, ![E, 1]⟩ : Shape).Idx := ix2 e ⟨0, Nat.one_pos⟩

section
variable {N H D E w : Nat}
  (wf : ScatterDims.WF ⟨3, ![N, H, D]⟩ ⟨2, ![E, 1]⟩ ⟨3, ![E, H, D]⟩ [1, 2] [0] [0] 1)

/-- On the row axis the window starts at the update row's index, read signed. -/
theorem start_row (j : (⟨3, ![E, H, D]⟩ : Shape).Idx) (idx : IVec ⟨2, ![E, 1]⟩ w) :
    (rowDims N H D E wf).start j idx 0 = (idx (segIdx (j 0))).toInt := by
  unfold ScatterDims.start
  rw [dif_pos (show (0 : Fin 3) ∈ (rowDims N H D E wf).scatterDimsToOperandDims from List.mem_singleton.mpr rfl)]
  have hsi : (rowDims N H D E wf).siIdx j ⟨List.idxOf (0 : Fin 3) (rowDims N H D E wf).scatterDimsToOperandDims,
      List.idxOf_lt_length_iff.2 (List.mem_singleton.mpr rfl)⟩ = segIdx (j 0) := by
    funext b; refine Fin.ext ?_
    match b with
    | ⟨0, _⟩ => rfl
    | ⟨1, _⟩ => rfl
  rw [hsi]
  rfl

/-- On the two window axes it starts at zero. -/
theorem start_h (j : (⟨3, ![E, H, D]⟩ : Shape).Idx) (idx : IVec ⟨2, ![E, 1]⟩ w) :
    (rowDims N H D E wf).start j idx 1 = 0 := by
  unfold ScatterDims.start
  rw [dif_neg (show (1 : Fin 3) ∉ (rowDims N H D E wf).scatterDimsToOperandDims from
    (by decide : (1 : Fin 3) ∉ ([0] : List (Fin 3))))]
theorem start_d (j : (⟨3, ![E, H, D]⟩ : Shape).Idx) (idx : IVec ⟨2, ![E, 1]⟩ w) :
    (rowDims N H D E wf).start j idx 2 = 0 := by
  unfold ScatterDims.start
  rw [dif_neg (show (2 : Fin 3) ∉ (rowDims N H D E wf).scatterDimsToOperandDims from
    (by decide : (2 : Fin 3) ∉ ([0] : List (Fin 3))))]

/-- The window coordinate: nothing on the row axis, the update's own coordinate on the other two. -/
theorem window_row (j : (⟨3, ![E, H, D]⟩ : Shape).Idx) : (rowDims N H D E wf).window j 0 = 0 := by
  unfold ScatterDims.window
  rw [dif_neg (show (0 : Fin 3) ∉ (rowDims N H D E wf).sKept from
    (by decide : (0 : Fin 3) ∉ (List.finRange 3).filter (fun a => a ∉ ([0] : List (Fin 3)))))]
theorem window_h (j : (⟨3, ![E, H, D]⟩ : Shape).Idx) : (rowDims N H D E wf).window j 1 = (j 1).val := by
  unfold ScatterDims.window
  rw [dif_pos (show (1 : Fin 3) ∈ (rowDims N H D E wf).sKept from
    (by decide : (1 : Fin 3) ∈ (List.finRange 3).filter (fun a => a ∉ ([0] : List (Fin 3)))))]
  rfl
theorem window_d (j : (⟨3, ![E, H, D]⟩ : Shape).Idx) : (rowDims N H D E wf).window j 2 = (j 2).val := by
  unfold ScatterDims.window
  rw [dif_pos (show (2 : Fin 3) ∈ (rowDims N H D E wf).sKept from
    (by decide : (2 : Fin 3) ∈ (List.finRange 3).filter (fun a => a ∉ ([0] : List (Fin 3)))))]
  rfl

/-- WHERE AN UPDATE LANDS: update entry `j = (e, h, d)` lands on operand entry `i` exactly when the row index of `e`,
    read signed, is `i`'s row and the other two coordinates agree. -/
theorem resultIdx?_eq_some_iff (j : (⟨3, ![E, H, D]⟩ : Shape).Idx) (idx : IVec ⟨2, ![E, 1]⟩ w)
    (i : (⟨3, ![N, H, D]⟩ : Shape).Idx) :
    (rowDims N H D E wf).resultIdx? j idx = some i ↔
      (idx (segIdx (j 0))).toInt = ((i 0).val : Int) ∧ (j 1).val = (i 1).val ∧ (j 2).val = (i 2).val := by
  have hi0 : (i 0).val < N := (i 0).isLt
  have hj1 : (j 1).val < H := (j 1).isLt
  have hj2 : (j 2).val < D := (j 2).isLt
  unfold ScatterDims.resultIdx?
  split
  · rename_i hin
    rw [Option.some.injEq]
    constructor
    · intro h
      have h0 := congrArg (fun f => (f 0).val) h
      have h1 := congrArg (fun f => (f 1).val) h
      have h2 := congrArg (fun f => (f 2).val) h
      have g0 := (hin 0).1
      simp only [start_row, start_h, start_d, window_row, window_h, window_d] at h0 h1 h2 g0
      refine ⟨by omega, by omega, by omega⟩
    · rintro ⟨h0, h1, h2⟩
      funext a; refine Fin.ext ?_
      match a with
      | ⟨0, _⟩ =>
        show ((rowDims N H D E wf).start j idx 0 + ((rowDims N H D E wf).window j 0 : Int)).toNat = (i 0).val
        rw [start_row, window_row]; omega
      | ⟨1, _⟩ =>
        show ((rowDims N H D E wf).start j idx 1 + ((rowDims N H D E wf).window j 1 : Int)).toNat = (i 1).val
        rw [start_h, window_h]; omega
      | ⟨2, _⟩ =>
        show ((rowDims N H D E wf).start j idx 2 + ((rowDims N H D E wf).window j 2 : Int)).toNat = (i 2).val
        rw [start_d, window_d]; omega
  · rename_i hout
    constructor
    · intro h; exact absurd h (by simp)
    · rintro ⟨h0, h1, h2⟩
      exfalso; apply hout
      intro a
      match a with
      | ⟨0, _⟩ =>
        show 0 ≤ (rowDims N H D E wf).start j idx 0 + ((rowDims N H D E wf).window j 0 : Int) ∧
          (rowDims N H D E wf).start j idx 0 + ((rowDims N H D E wf).window j 0 : Int) < (N : Int)
        rw [start_row, window_row]; omega
      | ⟨1, _⟩ =>
        show 0 ≤ (rowDims N H D E wf).start j idx 1 + ((rowDims N H D E wf).window j 1 : Int) ∧
          (rowDims N H D E wf).start j idx 1 + ((rowDims N H D E wf).window j 1 : Int) < (H : Int)
        rw [start_h, window_h]; omega
      | ⟨2, _⟩ =>
        show 0 ≤ (rowDims N H D E wf).start j idx 2 + ((rowDims N H D E wf).window j 2 : Int) ∧
          (rowDims N H D E wf).start j idx 2 + ((rowDims N H D E wf).window j 2 : Int) < (D : Int)
        rw [start_d, window_d]; omega

/-- The update rows that land on operand row `n`: those whose index, read signed, is `n`. -/
def rowsOn (idx : IVec ⟨2, ![E, 1]⟩ w) (n : Nat) : Finset (Fin E) :=
  Finset.univ.filter fun e => (idx (segIdx e)).toInt = (n : Int)

/-- THE ROW SCATTER-ADD READ AT AN INDEX, on the extended reals: the operand's entry plus the sum over the update rows
    landing on its row of their entries at the same `(h, d)`. -/
theorem hostScatterAdd_rows_apply (x : (⟨3, ![N, H, D]⟩ : Shape).Idx → EReal) (idx : IVec ⟨2, ![E, 1]⟩ w)
    (upd : (⟨3, ![E, H, D]⟩ : Shape).Idx → EReal) (i : (⟨3, ![N, H, D]⟩ : Shape).Idx) :
    Ideal.hostScatterAdd (rowDims N H D E wf) x idx upd i
      = x i + ∑ e ∈ rowsOn idx (i 0).val, upd (ix3 e (i 1) (i 2)) := by
  unfold Ideal.hostScatterAdd
  refine congrArg (x i + ·) ?_
  refine Finset.sum_nbij' (fun j => j 0) (fun e => ix3 e (i 1) (i 2)) ?_ ?_ ?_ ?_ ?_
  · intro j hj
    rw [Finset.mem_filter] at hj
    have := (resultIdx?_eq_some_iff wf j idx i).mp hj.2
    exact Finset.mem_filter.mpr ⟨Finset.mem_univ _, this.1⟩
  · intro e he
    have he' := (Finset.mem_filter.mp he).2
    exact Finset.mem_filter.mpr ⟨Finset.mem_univ _, (resultIdx?_eq_some_iff wf _ idx i).mpr ⟨he', rfl, rfl⟩⟩
  · intro j hj
    rw [Finset.mem_filter] at hj
    have := (resultIdx?_eq_some_iff wf j idx i).mp hj.2
    funext a; refine Fin.ext ?_
    match a with
    | ⟨0, _⟩ => rfl
    | ⟨1, _⟩ => exact this.2.1.symm
    | ⟨2, _⟩ => exact this.2.2.symm
  · intro e _; rfl
  · intro j hj
    rw [Finset.mem_filter] at hj
    have := (resultIdx?_eq_some_iff wf j idx i).mp hj.2
    refine congrArg upd ?_
    funext a; refine Fin.ext ?_
    match a with
    | ⟨0, _⟩ => rfl
    | ⟨1, _⟩ => exact this.2.1
    | ⟨2, _⟩ => exact this.2.2

/-- The same for the host operation `Host.scatterAdd` read at the ideal instance, which is that sum by definition. -/
theorem scatterAdd_rows_apply (x : (⟨3, ![N, H, D]⟩ : Shape).Idx → EReal) (idx : IVec ⟨2, ![E, 1]⟩ w)
    (upd : (⟨3, ![E, H, D]⟩ : Shape).Idx → EReal) (i : (⟨3, ![N, H, D]⟩ : Shape).Idx) :
    Host.scatterAdd (F := Ideal) (φ := .f32) (rowDims N H D E wf) x idx upd i
      = x i + ∑ e ∈ rowsOn idx (i 0).val, upd (ix3 e (i 1) (i 2)) :=
  hostScatterAdd_rows_apply wf x idx upd i

end

end Idealize.ShloMosaic.ScatterRows

end
-- ==== Proof.Bridge.lean ====
/-
  The bridge: the kernel program's tail function, applied to the row numbers, the messages and the replicated weights of
  the reference's three gathered arrays, is the reference's result.

  Numerators: the same scatter-add of the same message array. Denominators: the kernel sums, for node `n`, head `h` and
  EVERY lane `d`, the weights replicated over the lanes; the reference sums the weights once per `(n, h)` into a column
  `[N, 8, 1]` and broadcasts it over the lanes afterwards. Both are the sum of `weight e h` over the SAME set of edges — the
  edges whose destination row number, read signed, is `n` — because where an update row lands does not depend on the
  trailing extents of the scatter. Then the same `1e-6`, the same quotient, the same re-layout.
-/
import proofs.«128621_j31327491457419_2_alg».proof.Proof.KernelTailDef
import proofs.«128621_j31327491457419_2_alg».proof.Proof.RefRead
import proofs.«128621_j31327491457419_2_alg».proof.Proof.LibScatterRows

noncomputable section

open scoped BigOperators

namespace Cert.KernelIdeal.Tail

open Idealize.ShloMosaic Idealize.ShloMosaic.ValueIdx Idealize.ShloMosaic.ScatterRows
open Cert.KernelIdeal Cert.EdgeWeights Cert.ReferenceIdeal.Read Cert.ReferenceIdeal.RefValue

variable (x0 x1 x2 : (⟨S1x50000x8x16, .f32⟩ : BufTy).Contents (Elt Ideal)) (x3 : (⟨S2x800000, .i32⟩ : BufTy).Contents (Elt Ideal))

/-! ## The two programs' scatters are row scatters, with the same zeros and the same row numbers -/

theorem dK_eq : scatter_S50000x8x16_S800000x1_S800000x8x16_12_0_0_1
    = rowDims 50000 8 16 800000 Cert.KernelIdeal.Facts₀.scatter_S50000x8x16_S800000x1_S800000x8x16_12_0_0_1_wf := rfl

theorem dR1_eq : Cert.ReferenceIdeal.scatter_S50000x8x1_S800000x1_S800000x8x1_12_0_0_1
    = rowDims 50000 8 1 800000 Cert.ReferenceIdeal.Facts₀.scatter_S50000x8x1_S800000x1_S800000x8x1_12_0_0_1_wf := rfl

theorem dR16_eq : Cert.ReferenceIdeal.scatter_S50000x8x16_S800000x1_S800000x8x16_12_0_0_1
    = scatter_S50000x8x16_S800000x1_S800000x8x16_12_0_0_1 := rfl

theorem rows_eq41 : rows (val_main_v6 (F := Ideal) x3) = val_main_v41 (F := Ideal) x3 := rfl
theorem rows_eq38 : rows (val_main_v6 (F := Ideal) x3) = val_main_v38 (F := Ideal) x3 := rfl
theorem zeros_eq37 : zeros = val_main_v37 (F := Ideal) := rfl

/-! ## Numerators -/

/-- The numerators agree: one scatter-add of one message array. -/
theorem num_eq :
    num (val_main_v6 (F := Ideal) x3)
        (message (val_main_v13 (F := Ideal) x1 x3) (val_main_v20 (F := Ideal) x0 x3) (val_main_v34 (F := Ideal) x2 x3))
      = val_main_v39 (F := Ideal) x0 x1 x2 x3 := by
  unfold num val_main_v39
  rw [ref_message, dR16_eq, ← rows_eq38, ← zeros_eq37]

/-! ## Denominators -/

/-- The kernel program's denominator at an entry: zero plus the sum, over the edges landing on the entry's row, of the
    second array at the edge's row and the entry's head and lane, plus the word 1e-6. -/
theorem den_apply (seg : IVec S800000 32) (U4 : FVec Ideal S800000x8x16 .f32) (i : S50000x8x16.Idx) :
    den seg U4 i = (zeros i + ∑ e ∈ rowsOn (rows seg) (i 0).val, U4 (ix3 e (i 1) (i 2))) + eps i := by
  unfold den
  rw [addf_apply, dK_eq, scatterAdd_rows_apply]

/-- The reference's weight column summed by destination row, at an entry. -/
theorem ref_colsum_apply (j : Cert.ReferenceIdeal.S50000x8x1.Idx) :
    val_main_v42 (F := Ideal) x0 x1 x3 j
      = val_main_v40 (F := Ideal) j + ∑ e ∈ rowsOn (val_main_v41 (F := Ideal) x3) (j 0).val,
          val_main_v27 (F := Ideal) x0 x1 x3 (ix3 e (j 1) (j 2)) := by
  unfold val_main_v42
  rw [dR1_eq, scatterAdd_rows_apply]

theorem zeros_apply (i : S50000x8x16.Idx) : zeros i = Ideal.ofBits .f32 0x00000000#32 := rfl
theorem eps_apply (i : S50000x8x16.Idx) : eps i = Ideal.ofBits .f32 0x358637BD#32 := rfl

/-- The denominators agree entry by entry: the same weights summed over the same edges, plus the same `1e-6`. -/
theorem den_eq :
    den (val_main_v6 (F := Ideal) x3)
        (weightRep (val_main_v13 (F := Ideal) x1 x3) (val_main_v20 (F := Ideal) x0 x3))
      = val_main_v45 (F := Ideal) x0 x1 x3 := by
  funext i
  rw [val_main_v45_apply, val_main_v44_apply, den_apply, ref_colsum_apply, ← rows_eq41, zeros_apply, eps_apply,
    val_main_v40_apply, val_main_cst_9_apply, val_main_v43_apply, val_main_cst_10_apply]
  have h0 : ((idx_main_v45 i) 0).val = (i 0).val := rfl
  rw [h0]
  refine congrArg₂ (· + ·) (congrArg₂ (· + ·) rfl (Finset.sum_congr rfl fun e _ => ?_)) rfl
  rw [ref_weight]
  rfl

/-! ## The results -/

/-- THE BRIDGE. -/
theorem bridge :
    tail (val_main_v6 (F := Ideal) x3)
        (message (val_main_v13 (F := Ideal) x1 x3) (val_main_v20 (F := Ideal) x0 x3) (val_main_v34 (F := Ideal) x2 x3))
        (weightRep (val_main_v13 (F := Ideal) x1 x3) (val_main_v20 (F := Ideal) x0 x3))
      = val_main_v47 (F := Ideal) x0 x1 x2 x3 := by
  unfold tail val_main_v47 val_main_v46
  rw [num_eq, den_eq]

end Cert.KernelIdeal.Tail

end
-- ==== Proof.lean ====
/- Edge attention by message passing: for every node `n`, head `h` and lane `d`,
       out[n, h·16 + d] = (∑_{e : dst e = n} v[src e, h, d] · w(e, h)) / (∑_{e : dst e = n} w(e, h) + 1e-6),
       w(e, h) = exp (clip (⟨k[src e, h, ·], q[dst e, h, ·]⟩ · s, −5, 5)).
   Both programs gather the key, query and value rows of every edge by the same host operations. The kernel program then
   computes, tile of 500 edges by tile, the messages `v · w` and the weights `w` replicated over the 16 lanes (scaling the
   dot product by the word 0.25), and scatter-adds both arrays by destination row on the host; the reference computes the
   weights once per (edge, head) (dividing the dot product by the word 4.0), scatter-adds the messages and the weight column,
   and broadcasts the column sum over the lanes. On the extended reals the two agree entry by entry: `x · 0.25 = x / 4` at
   every extended real (Proof/Weights.lean), the tiles cover the edge arrays (Proof/KernelBlocks.lean), and a row
   scatter-add sums over a set of edges that does not depend on the trailing extents (Proof/LibScatterRows.lean,
   Proof/Bridge.lean). The three frames are the generated ones (the reference's is its generated run), and the idealization
   rewrote nothing. -/
import proofs.«128621_j31327491457419_2_alg».proof.Defs
import proofs.«128621_j31327491457419_2_alg».proof.Proof.Gen.Kernel
import proofs.«128621_j31327491457419_2_alg».proof.Proof.Gen.Kernel.Frame
import proofs.«128621_j31327491457419_2_alg».proof.Proof.Gen.KernelIdeal
import proofs.«128621_j31327491457419_2_alg».proof.Proof.Gen.KernelIdeal.Frame
import proofs.«128621_j31327491457419_2_alg».proof.Proof.Gen.ReferenceIdeal
import proofs.«128621_j31327491457419_2_alg».proof.Proof.Gen.ReferenceIdeal.Run
import proofs.«128621_j31327491457419_2_alg».proof.Proof.Gen.ReferenceIdeal.Read
import proofs.«128621_j31327491457419_2_alg».proof.Proof.Gen.Pre_finite_inputs
import proofs.«128621_j31327491457419_2_alg».proof.Proof.KernelTail
import proofs.«128621_j31327491457419_2_alg».proof.Proof.KernelPrefix
import proofs.«128621_j31327491457419_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the tail function of the destination row numbers, the messages and the replicated
    weights of the three gathered arrays — the kernel program by its run, the reference by the bridge. -/
theorem algebraic : Cert.algebraic_KernelIdeal_ReferenceIdeal := by
  intro m ρ m' ρ' _ hagree
  refine ⟨fun c => Cert.KernelIdeal.Tail.result m c, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.1, (hagree c).2.2.1, (hagree c).2.2.2]
  show _ = Cert.KernelIdeal.Tail.result m c
  unfold Cert.KernelIdeal.Tail.result
  rw [Cert.KernelIdeal.Prefix.V_v6, Cert.KernelIdeal.Prefix.V_v13, Cert.KernelIdeal.Prefix.V_v20,
    Cert.KernelIdeal.Prefix.V_v27]
  exact (Cert.KernelIdeal.Tail.bridge _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
